-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256x256 : Shape := ⟨4, ![32, 64, 256, 256]⟩
abbrev S_ : Shape := ⟨0, ![]⟩

class Facts : Prop where
  bcast_S_S32x64x256x256 : S_.BroadcastsInDim S32x64x256x256 (![] : Fin 0 → Fin S32x64x256x256.rank)
  reducesTo_S32x64x256x256_S_d0_1_2_3 : S32x64x256x256.ReducesTo [0, 1, 2, 3] S_
  h_S_ : 0 < S_.numel

variable [Facts]

def fn {F : FTy → Type} [FloatOps F] (main_arg0 : FVec F S32x64x256x256 .f32) : IVec S_ 1 :=
  let main_v0 : FVec F S32x64x256x256 .f32 := Host.absf main_arg0
  let main_cst : FVec F S_ .f32 := constant S_ .f32 0x7F800000#32
  let main_v1 : FVec F S32x64x256x256 .f32 := broadcastInDim S32x64x256x256 ![] bcast_S_S32x64x256x256 main_cst
  let main_v2 : IVec S32x64x256x256 1 := cmpf .olt main_v0 main_v1
  let main_c : IVec S_ 1 := constantI S_ 1 1#1
  let main_v3 : IVec S_ 1 := (fun x v => Host.reduce IntOp.andi x v reducesTo_S32x64x256x256_S_d0_1_2_3 h_S_) main_v2 main_c
  main_v3
-- ==== Kernel.lean ====
abbrev S32x64x256x256 : Shape := ⟨4, ![32, 64, 256, 256]⟩
abbrev S524288x256 : Shape := ⟨2, ![524288, 256]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S32x64x256x256, .f32⟩
  | .hbm, ⟨1, _⟩ => ⟨S524288x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S1x1, .f32⟩
  | _, _ => ⟨S32x64x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S32x64x256x256_S524288x256 : S32x64x256x256.ShapeCasts S524288x256
  inb_S1x1_S1x1_0_0 : ∀ a, (![0, 0] : Fin 2 → Nat) a + S1x1.size a ≤ S1x1.size a
  h_S1x1 : 0 < S1x1.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x256x256 : Shape := ⟨4, ![32, 64, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S32x64x256x256, .f32⟩
  | .hbm, ⟨1, _⟩ => ⟨S32x64x256x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | _, _ => ⟨S32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S32x64x256x256_S_d0_1_2_3 : S32x64x256x256.ReducesTo [0, 1, 2, 3] S_
  h_S_ : 0 < S_.numel

variable [Facts₀]

class Facts : Prop extends Facts₀ where

variable [Facts]
-- ==== Proof.Spec.lean ====
/-
  The function both programs compute, over the extended reals: the squares of all 32·64·256·256 entries of the argument,
  summed, divided by 2048 (the divisor is the float 2048.0, the same word in both programs, never evaluated here).
-/
import Idealize.ShloMosaic.PureOps.Ideal
import Idealize.ShloMosaic.PureOps.Vector

noncomputable section

open Idealize.ShloMosaic

namespace SumSquares

/-- The argument's shape, and the scalar shape of the result. -/
abbrev Arg : Shape := ⟨4, ![32, 64, 256, 256]⟩
abbrev Scal : Shape := ⟨0, ![]⟩

/-- The squares of all entries, summed. -/
def sumSquares (x : Arg.Idx → EReal) : EReal := ∑ J : Arg.Idx, x J * x J

/-- The result: that sum over 2048. -/
def result (x : Arg.Idx → EReal) : FVec Ideal Scal .f32 :=
  Host.divf (F := Ideal) (fun _ => sumSquares x) (constant Scal .f32 0x45000000#32)

end SumSquares

end
-- ==== Proof.RefValue.lean ====
/-
  The reference's result over the extended reals: the squares of every entry of the argument, summed from the initial
  value zero — the whole sum, since zero is neutral —, over 2048.
-/
import proofs.«130538_j58420145160869_1_alg».proof.Defs
import proofs.«130538_j58420145160869_1_alg».proof.Proof.Gen.ReferenceIdeal.Read
import proofs.«130538_j58420145160869_1_alg».proof.Proof.Spec
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen

/-- The last operation's value is the specification's result of the argument. -/
theorem result_eq (x : (⟨S32x64x256x256, .f32⟩ : BufTy).Contents (Elt Ideal)) :
    Read.val_main_v2 (F := Ideal) x = SumSquares.result x := by
  unfold Read.val_main_v2 Read.val_main_cst_0 SumSquares.result
  refine congrArg (fun z => Host.divf (F := Ideal) z (constant S_ .f32 0x45000000#32)) ?_
  funext i
  rw [Read.val_main_v1_apply]
  show Ideal.ofBits .f32 0x00000000#32 + ∑ j : S32x64x256x256.Idx, x j * x j = SumSquares.sumSquares x
  rw [Ideal.ofBits_zero_f32, zero_add]
  rfl

end Cert.ReferenceIdeal.RefValue

end
-- ==== Proof.Pieces.lean ====
/-
  What one run of the kernel body leaves in the one-entry running total, at any float instance.
  At the first grid point the body stores zero, reads it back, and stores (what it read) + (the block's sum of squares);
  at every later point it reads the total the point before left and stores that + (the block's sum of squares).
  Either way the entry ends at the body's one arithmetic expression of the input block and of the total it read.
-/
import proofs.«130538_j58420145160869_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Both of the body's rectangles start at the origin. -/
theorem origin : (![0, 0] : Fin 2 → Nat) = fun _ => 0 := funext fun a => by fin_cases a <;> rfl

/-- A LATER POINT: from a total `xo` and an input block `x`, the body leaves its expression of `x` and `xo` — the one
    store covers the entry, and both loads read whole buffers. -/
theorem later_point (c : Dev nD) (i : grid0.Coords) (a1 : Memref sig .tc .vmem S4096x256 .f32) (h1 : a1.IsWhole)
    (a2 : Memref sig .tc .vmem S1x1 .f32) (h2 : a2.IsWhole) (hc : ¬cond0_0 i) (x : Vec F S4096x256 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero origin]
  simp only [View.readAt_eq_ld, h1.read_unread, h2.read_unread, View.ld_unit_zero (S := S4096x256) origin,
    View.ld_unit_zero (S := S1x1) origin]

/-- THE FIRST POINT: the body stores the zero entry, reads it back (a load the first store covers), and leaves its
    expression of the input block and of that zero entry. -/
theorem first_point (c : Dev nD) (i : grid0.Coords) (a1 : Memref sig .tc .vmem S4096x256 .f32) (h1 : a1.IsWhole)
    (a2 : Memref sig .tc .vmem S1x1 .f32) (h2 : a2.IsWhole) (hc : cond0_0 i) (x : Vec F S4096x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) origin, View.readCov_unit_zero (S := S1x1) _ origin]
  simp only [View.readAt_eq_ld, h1.read_unread, View.ld_unit_zero (S := S4096x256) origin,
    View.ld_unit_zero (S := S1x1) origin]

end Cert.KernelIdeal.Pieces

end
-- ==== Proof.Payload.lean ====
/-
  The body's arithmetic over the extended reals. From an input block x of 4096 rows by 256 lanes and the total `xo` it
  read, the body computes xo + Σ_r Σ_l x(r, l)²: the squares, summed along the lanes of each row, the 4096 row sums
  re-laid as a column and summed again, the one number re-laid as a [1, 1] entry and added to the total read.
  The entry stored at the first point is the real number zero.
-/
import proofs.«130538_j58420145160869_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- A [1] vector re-laid as [1, 1]: its one entry. -/
theorem relay_one (v : FVec Ideal S1 .f32) (h : S1.ShapeCasts S1x1) (j : S1x1.Idx) :
    shapeCast S1x1 v h j = v (ix1 (0 : Fin 1)) := by
  refine shapeCast_apply v h j (ix1 (0 : Fin 1)) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- A [4096] vector re-laid as a [4096, 1] column: row r of the column is entry r. -/
theorem relay_column (v : FVec Ideal S4096 .f32) (h : S4096.ShapeCasts S4096x1) (r : Fin 4096) (k : Fin 1) :
    shapeCast S4096x1 v h (ix2 r k) = v (ix1 r) := by
  refine shapeCast_apply v h (ix2 r k) (ix1 r) ?_
  rw [Shape.rowMajor_val_one, Shape.rowMajor_val_two]
  have hk : k.val < 1 := k.isLt
  show r.val = r.val * 1 + k.val
  omega

/-- The sum along the lanes: entry r of the result is the sum of row r's 256 entries. -/
theorem lane_sum (v : FVec Ideal S4096x256 .f32) (h : S4096x256.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ l : Fin 256, v (ix2 r l) :=
  (Ideal.multiReduction_add_single v 0x00000000#32 h hφ hacc (ix1 r)).trans
    (Finset.sum_congr rfl fun l _ => congrArg v (funext fun a => by match a with | ⟨0, _⟩ => rfl | ⟨1, _⟩ => rfl))

/-- The sum down a column: the one entry of the result is the sum of the column's 4096 entries. -/
theorem column_sum (v : FVec Ideal S4096x1 .f32) (h : S4096x1.Reduces [0] S1) (hφ : FKind.Formats .f32)
    (hacc : (0x00000000#32 : BitVec 32) = FKind.add.neutral .f32 hφ) (k : Fin 1) :
    multiReduction .add [0] S1 v 0x00000000#32 h hφ hacc (ix1 k) = ∑ r : Fin 4096, v (ix2 r k) :=
  (Ideal.multiReduction_add_single v 0x00000000#32 h hφ hacc (ix1 k)).trans
    (Finset.sum_congr rfl fun r _ => congrArg v (funext fun a => by match a with | ⟨0, _⟩ => rfl | ⟨1, _⟩ => rfl))

/-- The entry the first point stores is zero. -/
theorem zero_entry (j : S1x1.Idx) : k0_pay1 (F := Ideal) j = 0 := by
  unfold k0_pay1
  show Ideal.ofBits .f32 0x00000000#32 = 0
  exact Ideal.ofBits_zero_f32

/-- THE BODY'S EXPRESSION: the total read plus the block's sum of squares, rows outermost. -/
theorem total_plus_block (x : Vec Ideal S4096x256 .f32) (xo : Vec Ideal S1x1 .f32) (j : S1x1.Idx) :
    k0_pay2 (F := Ideal) x xo j = xo j + ∑ r : Fin 4096, ∑ l : Fin 256, x (ix2 r l) * x (ix2 r l) := by
  unfold k0_pay2
  dsimp only
  rw [shapeCast_self, shapeCast_self, addf_apply]
  congr 1
  refine (relay_one _ _ j).trans ?_
  refine (column_sum _ _ _ _ (0 : Fin 1)).trans ?_
  refine Finset.sum_congr rfl fun r _ => ?_
  refine (relay_column _ _ r (0 : Fin 1)).trans ?_
  exact lane_sum _ _ _ _ r

end Cert.KernelIdeal.Payload

end
-- ==== Proof.LibBlockRows.lean ====
/-
  A sum over every index of an [N, C] array whose rows fall into T consecutive blocks of R rows each (N = T · R) is the
  sum, over the blocks, of the sums over each [R, C] block's own indices: entry (r, l) of block t is entry (R · t + r, l)
  of the array. Only commutativity and associativity of the addition are used, so the law holds in any additive
  commutative monoid (the extended reals among them).
-/
import Idealize.ShloMosaic.Lib.ValueIdx

noncomputable section

namespace BlockRows

open Idealize.ShloMosaic Idealize.ShloMosaic.ValueIdx

variable {N T R C : ℕ}

/-- Row `r` of block `t`, as a row of the whole array: `R · t + r`, below `T · R`. -/
def row (hN : N = T * R) (t : Fin T) (r : Fin R) : Fin N :=
  ⟨R * t.val + r.val, by
    have h1 := t.isLt
    have h2 := r.isLt
    have h3 : R * (t.val + 1) ≤ R * T := Nat.mul_le_mul_left R h1
    rw [hN, Nat.mul_comm T R]
    rw [Nat.mul_add, Nat.mul_one] at h3
    omega⟩

@[simp] theorem row_val (hN : N = T * R) (t : Fin T) (r : Fin R) : (row hN t r).val = R * t.val + r.val := rfl

/-- Entry `y` of block `t`, as an index of the whole array. -/
def idx (hN : N = T * R) (t : Fin T) (y : (⟨2, ![R, C]⟩ : Shape).Idx) : (⟨2, ![N, C]⟩ : Shape).Idx :=
  ix2 (row hN t (y 0)) (y 1)

theorem idx_val0 (hN : N = T * R) (t : Fin T) (y : (⟨2, ![R, C]⟩ : Shape).Idx) :
    ((idx hN t y) 0).val = R * t.val + (y 0).val := rfl

theorem idx_val1 (hN : N = T * R) (t : Fin T) (y : (⟨2, ![R, C]⟩ : Shape).Idx) :
    ((idx hN t y) 1).val = (y 1).val := rfl

/-- The rows of the array are the rows of its blocks, block after block. -/
def rowEquiv (hN : N = T * R) : Fin T × Fin R ≃ Fin N where
  toFun p := row hN p.1 p.2
  invFun a := (⟨a.val / R, by
      have h : a.val < R * T := lt_of_lt_of_eq a.isLt (hN.trans (Nat.mul_comm T R))
      exact Nat.div_lt_of_lt_mul h⟩,
    ⟨a.val % R, by
      have h : a.val < T * R := lt_of_lt_of_eq a.isLt hN
      have hR : 0 < R := by
        rcases Nat.eq_zero_or_pos R with h0 | h0
        · rw [h0, Nat.mul_zero] at h; exact absurd h (Nat.not_lt_zero _)
        · exact h0
      exact Nat.mod_lt _ hR⟩)
  left_inv p := by
    obtain ⟨t, r⟩ := p
    have hr := r.isLt
    have hR : 0 < R := Nat.lt_of_le_of_lt (Nat.zero_le _) hr
    refine Prod.ext (Fin.ext ?_) (Fin.ext ?_)
    · show (R * t.val + r.val) / R = t.val
      rw [Nat.mul_add_div hR, Nat.div_eq_of_lt hr, Nat.add_zero]
    · show (R * t.val + r.val) % R = r.val
      rw [Nat.mul_add_mod, Nat.mod_eq_of_lt hr]
  right_inv a := by
    apply Fin.ext
    show R * (a.val / R) + a.val % R = a.val
    exact Nat.div_add_mod _ _

/-- THE LAW: the sum over the array's indices is the sum over the blocks of the sums over each block's indices. -/
theorem sum_blocks {M : Type*} [AddCommMonoid M] (hN : N = T * R) (g : (⟨2, ![N, C]⟩ : Shape).Idx → M) :
    ∑ I, g I = ∑ t : Fin T, ∑ y : (⟨2, ![R, C]⟩ : Shape).Idx, g (idx hN t y) := by
  rw [sum_idx2, ← Equiv.sum_comp (rowEquiv hN) (fun a : Fin N => ∑ b : Fin C, g (ix2 a b)), Fintype.sum_prod_type]
  refine Finset.sum_congr rfl fun t _ => ?_
  rw [sum_idx2]
  rfl

end BlockRows

end
-- ==== Proof.Blocks.lean ====
/-
  The input blocks. The region finds the argument re-laid as [524288, 256] (the host reshape keeps every entry's
  row-major position); grid point t stages rows 4096·t … 4096·t + 4095 of it, all 256 lanes. So the squares of the 128
  blocks, summed block by block, are the squares of all entries of the re-laid array, and those are the squares of all
  entries of the argument: a sum over a finite index set does not depend on how the set is enumerated.
-/
import proofs.«130538_j58420145160869_1_alg».proof.Proof.Gen.KernelIdeal.Frame
import proofs.«130538_j58420145160869_1_alg».proof.Proof.LibBlockRows
import proofs.«130538_j58420145160869_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.Blocks

open Cert.KernelIdeal Cert.KernelIdeal.Gen

variable (m : (ℓ : Loc nD τ sig) → Buf (Elt Ideal) ℓ)

/-- 524288 rows are 128 blocks of 4096 rows. -/
theorem rows_split : (524288 : ℕ) = 128 * 4096 := by norm_num

theorem point_lt (t : Fin cfg0.N) : t.val < 128 := lt_of_lt_of_eq t.isLt (show cfg0.N = 128 from N_0)

/-- The input window's block index at point t is (t, 0) — decided once over the grid. -/
theorem input_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry y of the block staged at point t is entry (4096·t + y₀, y₁) of the re-laid array. -/
theorem block_entry (c : Dev nD) (t : Fin cfg0.N) (y : S4096x256.Idx) :
    (iblk m c 0 t : Vec Ideal S4096x256 .f32) y
      = V m c main_v0 (BlockRows.idx rows_split (⟨t.val, point_lt t⟩ : Fin 128) y) := by
  have hi := input_index t
  unfold iblk
  rw [View.read_apply]
  show V m c main_v0 _ = V m c main_v0 _
  congr 1
  funext a
  apply Fin.ext
  match a with
  | ⟨0, _⟩ => show win0_0.index t 0 * 4096 + 1 * (y 0).val = 4096 * t.val + (y 0).val; rw [hi.1]; omega
  | ⟨1, _⟩ => show win0_0.index t 1 * 256 + 1 * (y 1).val = (y 1).val; rw [hi.2]; omega

/-- The array the region finds is the argument re-laid: the one host operation before the region is the reshape. -/
theorem relaid (c : Dev nD) :
    (V m c main_v0 : S524288x256.Idx → Ideal .f32)
      = shapeCast S524288x256 (m ((c : Thread nD τ).loc main_arg0)) shapeCasts_S32x64x256x256_S524288x256 := by
  show StableHlo.after hostOps0 (fun b => m (c, b)) (Proc.devRef .tc main_v0) = _
  after_results
  rfl

/-- The argument as launched, the block staged at point t, and the re-laid argument, as extended-real functions. -/
def arg (c : Dev nD) : S32x64x256x256.Idx → EReal := m ((c : Thread nD τ).loc main_arg0)
def block (c : Dev nD) (t : Fin cfg0.N) : S4096x256.Idx → EReal := iblk m c 0 t
def relaidArg (c : Dev nD) : S524288x256.Idx → EReal :=
  fun I => arg m c (Shape.reshapeEquiv shapeCasts_S32x64x256x256_S524288x256 I)

/-- Entry y of block t is the argument's entry at the row-major position of (4096·t + y₀, y₁) in [524288, 256]. -/
theorem block_relaid (c : Dev nD) (t : Fin cfg0.N) (y : S4096x256.Idx) :
    block m c t y = relaidArg m c (BlockRows.idx rows_split (⟨t.val, point_lt t⟩ : Fin 128) y) :=
  (block_entry m c t y).trans (congrFun (relaid m c) _)

/-- The squares of block n's entries, summed along the lanes and then down the rows (nothing past the last block). -/
def blockSquares (c : Dev nD) (n : ℕ) : EReal :=
  if h : n < cfg0.N then ∑ r : Fin 4096, ∑ l : Fin 256, block m c ⟨n, h⟩ (ix2 r l) * block m c ⟨n, h⟩ (ix2 r l)
  else 0

/-- Block t's squares are the squares of the re-laid argument over the block's entries. -/
theorem blockSquares_eq (c : Dev nD) (t : Fin 128) :
    blockSquares m c t.val
      = ∑ y : S4096x256.Idx,
          (fun I : S524288x256.Idx => relaidArg m c I * relaidArg m c I) (BlockRows.idx rows_split t y) := by
  have ht : t.val < cfg0.N := lt_of_lt_of_eq t.isLt (show (128 : ℕ) = cfg0.N from N_0.symm)
  unfold blockSquares
  rw [dif_pos ht, sum_idx2]
  refine Finset.sum_congr rfl fun r _ => Finset.sum_congr rfl fun l _ => ?_
  rw [block_relaid]

/-- THE GROUPED SUM IS THE WHOLE SUM: the 128 blocks' squares add up to the squares of every entry of the argument —
    first over the re-laid array's entries (they are the blocks' entries, block after block), then over the argument's
    (the re-laying is a bijection of the index sets). -/
theorem all_blocks (c : Dev nD) :
    ∑ n ∈ Finset.range 128, blockSquares m c n = SumSquares.sumSquares (arg m c) := by
  unfold SumSquares.sumSquares
  rw [Finset.sum_range,
    ← Equiv.sum_comp (Shape.reshapeEquiv shapeCasts_S32x64x256x256_S524288x256) (fun J : S32x64x256x256.Idx => arg m c J * arg m c J)]
  show _ = ∑ I : S524288x256.Idx, relaidArg m c I * relaidArg m c I
  rw [BlockRows.sum_blocks rows_split]
  exact Finset.sum_congr rfl fun t _ => blockSquares_eq m c t

end Cert.KernelIdeal.Blocks

end
-- ==== Proof.Accum.lean ====
/-
  The running total. After grid point n the one-entry accumulator holds the squares of blocks 0 … n, summed block by
  block: at point 0 the body leaves 0 + (block 0's squares), and at point n + 1 it leaves (what point n left) +
  (block n + 1's squares) — by induction on the point, never by listing the 128 points.
-/
import proofs.«130538_j58420145160869_1_alg».proof.Proof.Pieces
import proofs.«130538_j58420145160869_1_alg».proof.Proof.Payload
import proofs.«130538_j58420145160869_1_alg».proof.Proof.Blocks

noncomputable section

open Idealize.ShloMosaic Idealize.ShloMosaic.TcCoe Idealize.SL.Sem
open Idealize.ShloMosaic.ValueIdx

namespace Cert.KernelIdeal.Accum

open Cert.KernelIdeal Cert.KernelIdeal.Gen

variable (m : (ℓ : Loc nD τ sig) → Buf (Elt Ideal) ℓ)

/-- What the accumulator holds after point n: the squares of blocks 0 … n. -/
theorem running_total (c : Dev nD) : ∀ (n : ℕ) (h : n < cfg0.N),
    outsAt0 m c n h = fun _ => ∑ k ∈ Finset.range (n + 1), Blocks.blockSquares m c k
  | 0, h => by
    refine (outsAt0_A m c ⟨0, h⟩ rfl).trans ((Pieces.first_point ..).trans (funext fun j => ?_))
    rw [Payload.total_plus_block, Payload.zero_entry, zero_add, Finset.sum_range_one]
    unfold Blocks.blockSquares
    rw [dif_pos h]
    rfl
  | n + 1, h => by
    have hN : n + 1 < 128 := lt_of_lt_of_eq h (show cfg0.N = 128 from N_0)
    have hB : ¬(⟨n + 1, h⟩ : Fin cfg0.N).val % 128 = 0 := by
      show ¬(n + 1) % 128 = 0
      omega
    have ih := running_total c n (Nat.lt_of_succ_lt h)
    rw [outsAt0_B m c ⟨n + 1, h⟩ hB, Pieces.later_point]
    funext j
    rw [Payload.total_plus_block]
    show outsAt0 m c n _ j + _ = _
    rw [ih, Finset.sum_range_succ _ (n + 1)]
    congr 1
    unfold Blocks.blockSquares
    rw [dif_pos h]
    rfl

end Cert.KernelIdeal.Accum

end
-- ==== Proof.KernelValue.lean ====
/-
  The kernel's result. The accumulator is written back once, after the last grid point (point 127), and its one block
  is the whole [1, 1] result array: the array ends holding the squares of all 128 blocks, summed. The host then re-lays
  that entry as a scalar and divides it by 2048. With the grouped sum equal to the whole sum, the kernel's result is
  the specification's result of the argument.
-/
import proofs.«130538_j58420145160869_1_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- The squares of all 128 blocks, summed block by block. -/
def total (c : Dev nD) : EReal := ∑ k ∈ Finset.range 128, Blocks.blockSquares m c k

/-- The result array's contents after the run: its one entry at the total. -/
def totalArray (c : Dev nD) : Buf (Elt Ideal) ((cfg0.win 1).arr.view.loc (c.tc : Thread nD τ)) := fun _ => total m c

theorem last_lt : 127 < cfg0.N := lt_of_lt_of_eq (by decide : 127 < 128) (show (128 : ℕ) = cfg0.N from N_0.symm)

/-- The last grid point. -/
def lastPoint : Fin cfg0.N := ⟨127, last_lt⟩

/-- The output window's block index is (0, 0) and its block is the whole [1, 1] array, at every point — decided once over the grid. -/
theorem output_index : ∀ (t : Fin cfg0.N) (a : Fin 2), win0_1.index t a * win0_1.size a = 0 ∧ win0_1.xsize (grid0.coords t) a = 1 :=
  (by decide +kernel : ∀ (t : Fin grid0.N) (a : Fin 2), win0_1.index t a * win0_1.size a = 0 ∧ win0_1.xsize (grid0.coords t) a = 1)

/-- The one write-back, at point 127, writes the total: what the body left there is the running total after point 127. -/
theorem flushed_eq (c : Dev nD) (t : Fin cfg0.N) (hf : (cfg0.win 1).flush t = true) :
    (dats m 0 c).flushed 1 t = ((cfg0.win 1).blk t).view.read (Elt Ideal) (totalArray m c) := by
  have h127 : t.val = 127 := by
    have h1 := (flush0_1 t).mp hf
    have h2 := Blocks.point_lt t
    omega
  show (cfg0.win 1).cut (grid0.coords t) ((dats m 0 c).after 1 t) = _
  rw [after0_1, Accum.running_total m c t.val t.isLt, h127]
  rfl

/-- So the result array ends holding the total: point 127's block covers it. -/
theorem final_array (c : Dev nD) : (dats m 0 c).arrAt 1 cfg0.N = totalArray m c :=
  (dats m 0 c).arrAt_eq_of_cover 1 (totalArray m c) (flushed_eq m c) fun i =>
    ⟨lastPoint, (flush0_1 lastPoint).mpr rfl, by
      show i ∈ ((View.whole main_v1).slice (win0_1.rect lastPoint)).set
      rw [View.set_slice_whole, Rect.mem_set_unit]
      intro a
      have ho0 := output_index lastPoint (0 : Fin 2)
      have ho1 := output_index lastPoint (1 : Fin 2)
      have h0 : (i 0 : Nat) < 1 := (i 0).isLt
      have h1 : (i 1 : Nat) < 1 := (i 1).isLt
      match a with
      | ⟨0, _⟩ =>
        show win0_1.index lastPoint 0 * win0_1.size 0 ≤ (i 0 : Nat) ∧ (i 0 : Nat) < win0_1.index lastPoint 0 * win0_1.size 0 + win0_1.xsize (grid0.coords lastPoint) 0
        rw [ho0.1, ho0.2]; omega
      | ⟨1, _⟩ =>
        show win0_1.index lastPoint 1 * win0_1.size 1 ≤ (i 1 : Nat) ∧ (i 1 : Nat) < win0_1.index lastPoint 1 * win0_1.size 1 + win0_1.xsize (grid0.coords lastPoint) 1
        rw [ho1.1, ho1.2]; omega⟩

/-- The host operations after the region: the entry re-laid as a scalar, over 2048. -/
theorem tail_eq (c : Dev nD) :
    Pipeline.afterTail₀ cfgs (dats m) 0 (V0 m) [hostOps1] c main_v3
      = Host.divf (F := Ideal) (fun _ => total m c) (constant S_ .f32 0x45000000#32) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = totalArray m c :=
    (Pipeline.withArrays_arr spec0 launch0.win.arr_inj c _ _ 1).trans (final_array m c)
  rw [hw]
  rfl

/-- THE KERNEL'S RUN, READ: every weakly fair execution ends with the result at (the blocks' total) / 2048 and the
    argument unchanged — both read off the generated frame run, whose post has every buffer the region does not stage
    at what the host operations after the region leave. -/
theorem run_total : θ_run defs (onTc (τ := τ) (main (F := Ideal))) ⟨m, fun _ => 0, ρ⟩ fun r => ∀ c : Dev nD,
      r.2.mem ((c.tc : Thread nD τ).loc main_v3) = Host.divf (F := Ideal) (fun _ => total m c) (constant S_ .f32 0x45000000#32)
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

/-- The kernel's result is the specification's result of the argument: the blocks' total is the whole sum of squares. -/
theorem run : θ_run defs (onTc (τ := τ) (main (F := Ideal))) ⟨m, fun _ => 0, ρ⟩ fun r => ∀ c : Dev nD,
      r.2.mem ((c.tc : Thread nD τ).loc main_v3) = SumSquares.result (Blocks.arg m c)
      ∧ r.2.mem ((c.tc : Thread nD τ).loc main_arg0) = m ((c.tc : Thread nD τ).loc main_arg0) :=
  (θ_run defs _ _).mono (fun _ h c => ⟨(h c).1.trans (by
      unfold SumSquares.result total
      rw [Blocks.all_blocks]), (h c).2⟩) (run_total m ρ)

end Cert.KernelIdeal.KernelValue

end
-- ==== Proof.lean ====
/-
  The kernel sums the squares of the entries of a [32, 64, 256, 256] array block by block — 128 blocks of 4096 rows of
  256 lanes of the array re-laid as [524288, 256], each block's rows summed lane by lane and then row by row into one
  running total kept across the grid — and divides the total by 2048; the reference sums the squares of all entries at
  once and divides by 2048. Over the extended reals addition is commutative and associative, so the grouped sum is the
  whole sum, and the two quotients have equal numerators and the same divisor.
-/
import proofs.«130538_j58420145160869_1_alg».proof.Defs
import proofs.«130538_j58420145160869_1_alg».proof.Proof.Gen.Kernel
import proofs.«130538_j58420145160869_1_alg».proof.Proof.Gen.Kernel.Frame
import proofs.«130538_j58420145160869_1_alg».proof.Proof.Gen.KernelIdeal
import proofs.«130538_j58420145160869_1_alg».proof.Proof.Gen.KernelIdeal.Frame
import proofs.«130538_j58420145160869_1_alg».proof.Proof.Gen.ReferenceIdeal
import proofs.«130538_j58420145160869_1_alg».proof.Proof.Gen.ReferenceIdeal.Run
import proofs.«130538_j58420145160869_1_alg».proof.Proof.Gen.Pre_finite_inputs
import proofs.«130538_j58420145160869_1_alg».proof.Proof.RefValue
import proofs.«130538_j58420145160869_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's result of the argument: the kernel by its blocks' total being the whole sum
    of squares, the reference by its own sum starting from zero; the arguments agree, so the results do. -/
theorem algebraic : Cert.algebraic_KernelIdeal_ReferenceIdeal := by
  intro m ρ m' ρ' _ hagree
  refine ⟨fun c => SumSquares.result (Cert.KernelIdeal.Blocks.arg m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
